-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S1 : Shape := ⟨1, ![1]⟩
abbrev S128x32 : Shape := ⟨2, ![128, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_
  bcast_S_S128x32 : S_.BroadcastsInDim S128x32 (![] : Fin 0 → Fin S128x32.rank)
  reducesTo_S128x32_S_d0_1 : S128x32.ReducesTo [0, 1] S_

variable [Facts]

def fn_part1 {F : FTy → Type} [FloatOps F] (main_arg4 : FVec F S128x32 .f32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S1 .f32) (main_arg4 : FVec F S128x32 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S1 : Shape := ⟨1, ![1]⟩
abbrev S128x32 : Shape := ⟨2, ![128, 32]⟩
abbrev S1x1 : Shape := ⟨2, ![1, 1]⟩
abbrev S10000x32 : Shape := ⟨2, ![10000, 32]⟩
abbrev S400x10000 : Shape := ⟨2, ![400, 10000]⟩
abbrev S400x32 : Shape := ⟨2, ![400, 32]⟩
abbrev S400 : Shape := ⟨1, ![400]⟩
abbrev S400x1 : Shape := ⟨2, ![400, 1]⟩

abbrev nBuf : Space → Nat
  | .hbm => 13
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S1, .f32⟩
  | .hbm, ⟨4, _⟩ => ⟨S128x32, .f32⟩
  | .hbm, ⟨5, _⟩ => ⟨S1, .f32⟩
  | .hbm, ⟨6, _⟩ => ⟨S1x1, .f32⟩
  | .hbm, ⟨7, _⟩ => ⟨S1x1, .f32⟩
  | .hbm, ⟨8, _⟩ => ⟨S10000x32, .f32⟩
  | .hbm, ⟨9, _⟩ => ⟨S10000x32, .bf16⟩
  | .hbm, ⟨10, _⟩ => ⟨S10000x32, .f32⟩
  | .hbm, ⟨11, _⟩ => ⟨S10000x32, .bf16⟩
  | .hbm, ⟨12, _⟩ => ⟨S10000x32, .f32⟩
  | .local _ .vmem, ⟨0, _⟩ => ⟨S10000x128, .f32⟩
  | .local _ .vmem, ⟨1, _⟩ => ⟨S128x128, .f32⟩
  | .local _ .vmem, ⟨2, _⟩ => ⟨S1x1, .f32⟩
  | .local _ .vmem, ⟨3, _⟩ => ⟨S128x32, .f32⟩
  | .local _ .vmem, ⟨4, _⟩ => ⟨S1x1, .f32⟩
  | .local _ .vmem, ⟨5, _⟩ => ⟨S10000x32, .f32⟩
  | .local _ .vmem, ⟨6, _⟩ => ⟨S400x10000, .f32⟩
  | .local _ .vmem, ⟨7, _⟩ => ⟨S400x10000, .f32⟩
  | .local _ .vmem, ⟨8, _⟩ => ⟨S10000x32, .bf16⟩
  | .local _ .vmem, ⟨9, _⟩ => ⟨S400x32, .f32⟩
  | .local _ .vmem, ⟨10, _⟩ => ⟨S400x32, .f32⟩
  | .local _ .vmem, ⟨11, _⟩ => ⟨S400x32, .f32⟩
  | .local _ .vmem, ⟨12, _⟩ => ⟨S400x32, .f32⟩
  | .local _ .vmem, ⟨13, _⟩ => ⟨S400x10000, .f32⟩
  | .local _ .vmem, ⟨14, _⟩ => ⟨S400x10000, .f32⟩
  | .local _ .vmem, ⟨15, _⟩ => ⟨S10000x32, .bf16⟩
  | .local _ .vmem, ⟨16, _⟩ => ⟨S400x32, .f32⟩
  | .local _ .vmem, ⟨17, _⟩ => ⟨S400x32, .f32⟩
  | .local _ .vmem, ⟨18, _⟩ => ⟨S400x32, .f32⟩
  | .local _ .vmem, ⟨19, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x128 : S1x1.Broadcasts S10000x128
  inb_S128x32_S128x32_0_0 : ∀ a, (![0, 0] : Fin 2 → Nat) a + S128x32.size a ≤ S128x32.size a
  h_S128x32 : 0 < S128x32.numel
  broadcasts_S1x1_S10000x32 : S1x1.Broadcasts S10000x32
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S400x32_S400x32_0_0 : ∀ a, (![0, 0] : Fin 2 → Nat) a + S400x32.size a ≤ S400x32.size a
  h_S400x32 : 0 < S400x32.numel
  shapeCasts_S400x32_S400x32 : S400x32.ShapeCasts S400x32
  reduces_S400x32_S400 : S400x32.Reduces [1] S400
  shapeCasts_S400_S400x1 : S400.ShapeCasts S400x1
  broadcasts_S400x1_S400x32 : S400x1.Broadcasts S400x32
  dot_S10000x128_S128x128_S10000x128_1_0_0_1_n_n_wf : DotDims.WF S10000x128 S128x128 S10000x128 [1] [0] [0] [1] [] []
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .f32 = 32 ∨ (Rect.block (s := S10000x32) S400x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .bf16 = 32 ∨ (Rect.block (s := S10000x32) S10000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .f32 = 32 ∨ (Rect.block (s := S10000x32) S400x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x32.size a ≤ S10000x32.size a
  hwx2_3 : ∀ i : grid2.Coords, EltTy.bits .f32 = 32 ∨ (Rect.block (s := S10000x32) S400x32.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v1) false false (stage0_4 0) (sem0_4 0) (Memref.isWhole_whole _) (hstage0_4 0)

abbrev win0_5 : Pipeline.Window sig grid0 :=
  Pipeline.Window.whole (Memref.whole main_v2) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S400x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S1 : Shape := ⟨1, ![1]⟩
abbrev S128x32 : Shape := ⟨2, ![128, 32]⟩
abbrev S1x1 : Shape := ⟨2, ![1, 1]⟩
abbrev S_ : Shape := ⟨0, ![]⟩
abbrev S10000x32 : Shape := ⟨2, ![10000, 32]⟩
abbrev S10000 : Shape := ⟨1, ![10000]⟩
abbrev S10000x1 : Shape := ⟨2, ![10000, 1]⟩

abbrev nBuf : Space → Nat
  | .hbm => 48
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S1, .f32⟩
  | .hbm, ⟨4, _⟩ => ⟨S128x32, .f32⟩
  | .hbm, ⟨5, _⟩ => ⟨S1, .f32⟩
  | .hbm, ⟨6, _⟩ => ⟨S10000x128, .f32⟩
  | .hbm, ⟨7, _⟩ => ⟨S1x1, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S10000x32, .f32⟩
  | .hbm, ⟨14, _⟩ => ⟨S1x1, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S_, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S10000x32, .f32⟩
  | .hbm, ⟨25, _⟩ => ⟨S10000x32, .f32⟩
  | .hbm, ⟨26, _⟩ => ⟨S_, .f32⟩
  | .hbm, ⟨27, _⟩ => ⟨S10000x32, .f32⟩
  | .hbm, ⟨28, _⟩ => ⟨S10000x32, .f32⟩
  | .hbm, ⟨29, _⟩ => ⟨S_, .f32⟩
  | .hbm, ⟨30, _⟩ => ⟨S10000x32, .f32⟩
  | .hbm, ⟨31, _⟩ => ⟨S10000x32, .f32⟩
  | .hbm, ⟨32, _⟩ => ⟨S10000x32, .f32⟩
  | .hbm, ⟨33, _⟩ => ⟨S_, .f32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S10000x1, .f32⟩
  | .hbm, ⟨39, _⟩ => ⟨S10000x32, .f32⟩
  | .hbm, ⟨40, _⟩ => ⟨S10000x32, .f32⟩
  | .hbm, ⟨41, _⟩ => ⟨S10000x32, .f32⟩
  | .hbm, ⟨42, _⟩ => ⟨S_, .f32⟩
  | .hbm, ⟨43, _⟩ => ⟨S10000, .f32⟩
  | .hbm, ⟨44, _⟩ => ⟨S10000x1, .f32⟩
  | .hbm, ⟨45, _⟩ => ⟨S10000x1, .f32⟩
  | .hbm, ⟨46, _⟩ => ⟨S10000x32, .f32⟩
  | .hbm, ⟨47, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_call1_cst_0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_cst_1 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_v21 : Ref sig .tc := ⟨.hbm, 47, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S10000x128_0_1 : S1x1.BroadcastsInDim S10000x128 (![0, 1] : Fin 2 → Fin S10000x128.rank)
  bcast_S_S10000x128 : S_.BroadcastsInDim S10000x128 (![] : Fin 0 → Fin S10000x128.rank)
  bcast_S1x1_S10000x32_0_1 : S1x1.BroadcastsInDim S10000x32 (![0, 1] : Fin 2 → Fin S10000x32.rank)
  bcast_S_S10000x32 : S_.BroadcastsInDim S10000x32 (![] : Fin 0 → Fin S10000x32.rank)
  reducesTo_S10000x32_S10000_d1 : S10000x32.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  dot_S10000x128_S128x128_S10000x128_1_0_0_1_n_n_wf : DotDims.WF S10000x128 S128x128 S10000x128 [1] [0] [0] [1] [] []
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.Layers.lean ====
/-
  The mathematics both programs compute, stated once, index by index, over the extended reals.

  A two-layer perceptron gives every node p a row of 32 class scores
      hidden p g = (∑ k < 128, max ((∑ i < 128, x p i · W0 i k) + b0) 0 · W1 k g) + b1,
  with one scalar bias per layer. A propagation step mixes the scores of a node's neighbours, weighted by a dense
  10000 × 10000 adjacency matrix, with the node's own perceptron scores:
      step src p g = c₉ · (∑ k < 10000, adj p k · src k g) + c₁ · hidden p g,
  where c₉ and c₁ are the single-precision words nearest 0.9 and 0.1, kept as those words: the same words stand in
  both programs, so their exact values never matter. Two steps are taken, the first from the perceptron scores
  themselves, and the result is normalised row by row:
      logSoftmax z g = (z g − M) − log (∑ q < 32, exp (z q − M)),   M the largest entry of the row z,
  the maximum taken as a fold from −∞.
-/
import Idealize.ShloMosaic.PureOps.Ideal
import Idealize.ShloMosaic.Lib.ValueIdx

noncomputable section

namespace Cert.Layers

open Idealize.ShloMosaic Idealize.ShloMosaic.ValueIdx

/-- An [a, b] array of extended reals. -/
abbrev Mat (a b : ℕ) := (⟨2, ![a, b]⟩ : Shape).Idx → EReal
/-- An [a] vector of extended reals. -/
abbrev Vect (a : ℕ) := (⟨1, ![a]⟩ : Shape).Idx → EReal

/-- The first layer after the rectifier, at node `p` and hidden unit `k`. -/
def rectified (x : Mat 10000 128) (W0 : Mat 128 128) (b0 : Vect 1) (p : Fin 10000) (k : Fin 128) : EReal :=
  max ((∑ i : Fin 128, x (ix2 p i) * W0 (ix2 i k)) + b0 (ix1 0)) (Ideal.ofBits .f32 0x00000000#32)

/-- The perceptron's score of class `g` at node `p`. -/
def hidden (x : Mat 10000 128) (W0 : Mat 128 128) (b0 : Vect 1) (W1 : Mat 128 32) (b1 : Vect 1)
    (p : Fin 10000) (g : Fin 32) : EReal :=
  (∑ k : Fin 128, rectified x W0 b0 p k * W1 (ix2 k g)) + b1 (ix1 0)

/-- The perceptron's scores as an array. -/
def hiddenArr (x : Mat 10000 128) (W0 : Mat 128 128) (b0 : Vect 1) (W1 : Mat 128 32) (b1 : Vect 1) : Mat 10000 32 :=
  fun j => hidden x W0 b0 W1 b1 (j 0) (j 1)

/-- One propagation step from the scores `src`, mixed with the perceptron scores `h`, at node `p` and class `g`. -/
def step (adj : Mat 10000 10000) (src h : Mat 10000 32) (p : Fin 10000) (g : Fin 32) : EReal :=
  Ideal.ofBits .f32 0x3F666666#32 * (∑ k : Fin 10000, adj (ix2 p k) * src (ix2 k g))
    + Ideal.ofBits .f32 0x3DCCCCCD#32 * h (ix2 p g)

/-- A propagation step as an array. -/
def stepArr (adj : Mat 10000 10000) (src h : Mat 10000 32) : Mat 10000 32 :=
  fun j => step adj src h (j 0) (j 1)

/-- The largest entry of a row of 32 scores, as a fold of `max` from −∞ (the single-precision word of −∞). -/
def rowMax (z : Fin 32 → EReal) : EReal :=
  (Finset.univ : Finset (Fin 32)).fold max (Ideal.ofBits .f32 0xFF800000#32) z

/-- The log-softmax of a row of 32 scores, at class `g`. -/
def logSoftmax (z : Fin 32 → EReal) (g : Fin 32) : EReal :=
  (z g - rowMax z) - Ideal.log (∑ q : Fin 32, Ideal.exp (z q - rowMax z))

/-- The whole computation: two propagation steps from the perceptron scores, then the row-wise log-softmax. -/
def result (x : Mat 10000 128) (adj : Mat 10000 10000) (W0 : Mat 128 128) (b0 : Vect 1) (W1 : Mat 128 32) (b1 : Vect 1) :
    Mat 10000 32 :=
  fun j => logSoftmax
    (fun q => step adj (stepArr adj (hiddenArr x W0 b0 W1 b1) (hiddenArr x W0 b0 W1 b1)) (hiddenArr x W0 b0 W1 b1) (j 0) q) (j 1)

end Cert.Layers

end
-- ==== Proof.KernelRun.lean ====
/-
  The idealized kernel's run with its result named.

  The program is three kernel regions among short stretches of host operations. Its run is taken once, over the
  program's segments, and read at the end: every weakly fair execution terminates, nothing faulting, and in the final
  state every buffer that outlives the regions holds the contents the last segment boundary gives it. Read at the
  six argument arrays this is the statement that they end as launched; read at the result array it names what the
  program returns: the last boundary's contents at that array, which is what the last region's write-backs leave.
-/
import proofs.«110238_g16638703304886_cont_week2b_768_2_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    segment boundary's contents and the six argument arrays as launched. -/
theorem run : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.NamedRun

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibUnitCell.lean ====
/-
  A one-entry array spread over a matrix.

  A [1, 1] array holds a single number. Broadcasting it to an [a, b] array puts that number at every entry: both of its
  axes have extent one, so every coordinate of the target is sent to coordinate 0 of the source. General in the
  extents and in the element type; this is how a scalar bias kept as a [1, 1] block reaches every entry of a layer.
-/
import Idealize.ShloMosaic.Lib.Pipeline.Value
import Idealize.ShloMosaic.Lib.ValueIdx

noncomputable section

namespace Cert.Lib.UnitCell

open Idealize.ShloMosaic Idealize.ShloMosaic.ValueIdx

variable {α : Type}

/-- A [1, 1] array broadcast to [a, b]: every entry is the array's one entry. -/
theorem broadcastTo_11_ab_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

end Cert.Lib.UnitCell

end
-- ==== Proof.PerceptronBlock.lean ====
/-
  The perceptron kernel's stored value, entry by entry.

  The first kernel runs at a single grid point on whole arrays: the node features, both weight matrices, and each
  layer's scalar bias kept as a [1, 1] block. Over the extended reals each matrix unit product into a zero accumulator
  is the plain sum over the 128 contracted positions, and the bias block broadcast over a layer is its one entry at
  every position. So entry (p, g) of what the kernel stores is
      (∑ k < 128, max ((∑ i < 128, x p i · W0 i k) + b0) 0 · W1 k g) + b1,
  with b0 and b1 the two blocks' entries: the perceptron's score of class g at node p.
-/
import proofs.«110238_g16638703304886_cont_week2b_768_2_alg».proof.Proof.Gen.KernelIdeal.Skeleton
import proofs.«110238_g16638703304886_cont_week2b_768_2_alg».proof.Proof.LibPlainDot
import proofs.«110238_g16638703304886_cont_week2b_768_2_alg».proof.Proof.LibUnitCell
import Idealize.ShloMosaic.Lib.ValueIdx
import Idealize.ShloMosaic.Lib.Pipeline.Value

noncomputable section

namespace Cert.KernelIdeal.PerceptronBlock

open Idealize.ShloMosaic Idealize.ShloMosaic.ValueIdx Cert.KernelIdeal Cert.KernelIdeal.Gen

/-- The perceptron's score at node `p` and class `g`, from the features `x`, the weights `w0`, `w1` and the two
    layers' biases as [1, 1] blocks `c0`, `c1`. -/
def score (x : Vec Ideal S10000x128 .f32) (w0 : Vec Ideal S128x128 .f32) (c0 : Vec Ideal S1x1 .f32)
    (w1 : Vec Ideal S128x32 .f32) (c1 : Vec Ideal S1x1 .f32) (p : Fin 10000) (g : Fin 32) : EReal :=
  (∑ k : Fin 128,
      max ((∑ i : Fin 128, x (ix2 p i) * w0 (ix2 i k)) + c0 (ix2 (0 : Fin 1) (0 : Fin 1))) (Ideal.ofBits .f32 0x00000000#32)
        * w1 (ix2 k g))
    + c1 (ix2 (0 : Fin 1) (0 : Fin 1))

/-- The perceptron kernel's stored value at an entry is the perceptron's score. -/
theorem stored_entry (x : Vec Ideal S10000x128 .f32) (w0 : Vec Ideal S128x128 .f32) (c0 : Vec Ideal S1x1 .f32)
    (w1 : Vec Ideal S128x32 .f32) (c1 : Vec Ideal S1x1 .f32) (p : Fin 10000) (g : Fin 32) :
    k0_pay1 (F := Ideal) x w0 c0 w1 c1 (ix2 p g) = score x w0 c0 w1 c1 p g := by
  unfold k0_pay1 score
  rw [addf_apply, Cert.PlainDot.matmul_zero_apply dot_S10000x128_S128x32_S10000x32_1_0_0_1_n_n rfl,
    shapeCast_self, shapeCast_self, Cert.Lib.UnitCell.broadcastTo_11_ab_apply]
  refine congrArg (· + c1 (ix2 (0 : Fin 1) (0 : Fin 1))) (Finset.sum_congr rfl fun k _ => ?_)
  rw [maximumf_apply, addf_apply, broadcast_apply,
    Cert.PlainDot.matmul_zero_apply dot_S10000x128_S128x128_S10000x128_1_0_0_1_n_n rfl,
    Cert.Lib.UnitCell.broadcastTo_11_ab_apply]
  rfl

end Cert.KernelIdeal.PerceptronBlock

end
-- ==== Proof.LibEntries.lean ====
/-
  Two matrices are equal when they agree at every entry written by coordinates.

  An index of an [a, b] array is determined by its two coordinates, so to compare two such arrays it is enough to compare
  them at `ix2 r q` for every row r < a and column q < b. Stated over literal coordinate types, so that a proof can
  introduce r and q with those types whatever form the arrays' index type has been given.
-/
import Idealize.ShloMosaic.Lib.ValueIdx

noncomputable section

namespace Cert.Lib.Entries

open Idealize.ShloMosaic Idealize.ShloMosaic.ValueIdx

/-- Arrays of shape [a, b] that agree at every `(r, q)` are equal. -/
theorem ext_ix2 {α : Type} {a b : ℕ} (f g : (⟨2, ![a, b]⟩ : Shape).Idx → α)
    (h : ∀ (r : Fin a) (q : Fin b), f (ix2 r q) = g (ix2 r q)) : f = g :=
  funext fun j => by rw [eq_ix2 j]; exact h _ _

end Cert.Lib.Entries

end
-- ==== Proof.PerceptronRegion.lean ====
/-
  The perceptron region, from its one block to the array.

  The first region has a single grid point, and every window is its whole array at block index 0: each input block is
  the array itself, and the one block written back is the whole result. So the result array after the region is the
  perceptron's scores of the arrays the region found: the features, the two weight matrices, and the two bias blocks.
-/
import proofs.«110238_g16638703304886_cont_week2b_768_2_alg».proof.Proof.Gen.KernelIdeal.Frame
import proofs.«110238_g16638703304886_cont_week2b_768_2_alg».proof.Proof.PerceptronBlock
import proofs.«110238_g16638703304886_cont_week2b_768_2_alg».proof.Proof.LibEntries
import Idealize.ShloMosaic.Lib.Pipeline.Value
import Idealize.ShloMosaic.Lib.ValueIdx

noncomputable section

namespace Cert.KernelIdeal.PerceptronRegion

open Idealize.ShloMosaic Idealize.ShloMosaic.TcCoe Idealize.ShloMosaic.ValueIdx Idealize.SL.Sem
open Idealize.ShloMosaic.Pipeline (Dat)
open Cert.KernelIdeal Cert.KernelIdeal.Gen

-- the buffers' contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- Every window of the region sits at block index 0 on both axes. -/
theorem index_maps : ∀ t : Fin cfg0.N,
    win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

/-- The features' window is the whole array. -/
theorem features_block (c : Dev nD) (t : Fin cfg0.N) :
    (iblk0 V c 0 t : Vec Ideal S10000x128 .f32) = (V c main_arg0 : S10000x128.Idx → EReal) :=
  Cert.Lib.Entries.ext_ix2 _ _ fun p i => by
    obtain ⟨e0, e1, -, -, -, -, -, -, -, -, -, -⟩ := index_maps t
    unfold iblk0
    rw [View.read_apply]
    show (V c main_arg0 : S10000x128.Idx → EReal) _ = _
    refine congrArg (V c main_arg0 : S10000x128.Idx → EReal) (funext fun a => Fin.ext ?_)
    match a with
    | ⟨0, _⟩ => show win0_0.index t (0 : Fin 2) * 10000 + 1 * p.val = p.val; rw [e0]; omega
    | ⟨1, _⟩ => show win0_0.index t (1 : Fin 2) * 128 + 1 * i.val = i.val; rw [e1]; omega

/-- The first layer's weights' window is the whole array. -/
theorem weights0_block (c : Dev nD) (t : Fin cfg0.N) :
    (iblk0 V c 1 t : Vec Ideal S128x128 .f32) = (V c main_arg2 : S128x128.Idx → EReal) :=
  Cert.Lib.Entries.ext_ix2 _ _ fun i k => by
    obtain ⟨-, -, e0, e1, -, -, -, -, -, -, -, -⟩ := index_maps t
    unfold iblk0
    rw [View.read_apply]
    show (V c main_arg2 : S128x128.Idx → EReal) _ = _
    refine congrArg (V c main_arg2 : S128x128.Idx → EReal) (funext fun a => Fin.ext ?_)
    match a with
    | ⟨0, _⟩ => show win0_1.index t (0 : Fin 2) * 128 + 1 * i.val = i.val; rw [e0]; omega
    | ⟨1, _⟩ => show win0_1.index t (1 : Fin 2) * 128 + 1 * k.val = k.val; rw [e1]; omega

/-- The first layer's bias block's window is the whole [1, 1] array. -/
theorem bias0_block (c : Dev nD) (t : Fin cfg0.N) :
    (iblk0 V c 2 t : Vec Ideal S1x1 .f32) = (V c main_v0 : S1x1.Idx → EReal) :=
  Cert.Lib.Entries.ext_ix2 _ _ fun u v => by
    obtain ⟨-, -, -, -, e0, e1, -, -, -, -, -, -⟩ := index_maps t
    unfold iblk0
    rw [View.read_apply]
    show (V c main_v0 : S1x1.Idx → EReal) _ = _
    refine congrArg (V c main_v0 : S1x1.Idx → EReal) (funext fun a => Fin.ext ?_)
    match a with
    | ⟨0, _⟩ => show win0_2.index t (0 : Fin 2) * 1 + 1 * u.val = u.val; rw [e0]; omega
    | ⟨1, _⟩ => show win0_2.index t (1 : Fin 2) * 1 + 1 * v.val = v.val; rw [e1]; omega

/-- The second layer's weights' window is the whole array. -/
theorem weights1_block (c : Dev nD) (t : Fin cfg0.N) :
    (iblk0 V c 3 t : Vec Ideal S128x32 .f32) = (V c main_arg4 : S128x32.Idx → EReal) :=
  Cert.Lib.Entries.ext_ix2 _ _ fun k g => by
    obtain ⟨-, -, -, -, -, -, e0, e1, -, -, -, -⟩ := index_maps t
    unfold iblk0
    rw [View.read_apply]
    show (V c main_arg4 : S128x32.Idx → EReal) _ = _
    refine congrArg (V c main_arg4 : S128x32.Idx → EReal) (funext fun a => Fin.ext ?_)
    match a with
    | ⟨0, _⟩ => show win0_3.index t (0 : Fin 2) * 128 + 1 * k.val = k.val; rw [e0]; omega
    | ⟨1, _⟩ => show win0_3.index t (1 : Fin 2) * 32 + 1 * g.val = g.val; rw [e1]; omega

/-- The second layer's bias block's window is the whole [1, 1] array. -/
theorem bias1_block (c : Dev nD) (t : Fin cfg0.N) :
    (iblk0 V c 4 t : Vec Ideal S1x1 .f32) = (V c main_v1 : S1x1.Idx → EReal) :=
  Cert.Lib.Entries.ext_ix2 _ _ fun u v => by
    obtain ⟨-, -, -, -, -, -, -, -, e0, e1, -, -⟩ := index_maps t
    unfold iblk0
    rw [View.read_apply]
    show (V c main_v1 : S1x1.Idx → EReal) _ = _
    refine congrArg (V c main_v1 : S1x1.Idx → EReal) (funext fun a => Fin.ext ?_)
    match a with
    | ⟨0, _⟩ => show win0_4.index t (0 : Fin 2) * 1 + 1 * u.val = u.val; rw [e0]; omega
    | ⟨1, _⟩ => show win0_4.index t (1 : Fin 2) * 1 + 1 * v.val = v.val; rw [e1]; omega

/-- The region's result as one function of whole arrays: the perceptron's scores. -/
def whole (x : Vec Ideal S10000x128 .f32) (w0 : Vec Ideal S128x128 .f32) (c0 : Vec Ideal S1x1 .f32)
    (w1 : Vec Ideal S128x32 .f32) (c1 : Vec Ideal S1x1 .f32) : S10000x32.Idx → EReal :=
  fun j => Cert.KernelIdeal.PerceptronBlock.score x w0 c0 w1 c1 (j 0) (j 1)

/-- What the one point writes back is the whole-array function of the arrays as the region finds them. -/
theorem flushed_eq (c : Dev nD) (t : Fin cfg0.N) :
    (dat0 V c).flushed 5 t = ((cfg0.win 5).blk t).view.read (Elt Ideal)
      (whole (V c main_arg0) (V c main_arg2) (V c main_v0) (V c main_arg4) (V c main_v1)) := by
  show (cfg0.win 5).cut (grid0.coords t) ((dat0 V c).after 5 t) = _
  rw [after0_5]
  unfold out0_5
  rw [View.canon_unit_zero zero_offsets]
  simp only [View.ld_unit_zero (S := S10000x128) zero_offsets, View.ld_unit_zero (S := S128x128) zero_offsets,
    View.ld_unit_zero (S := S1x1) zero_offsets, View.ld_unit_zero (S := S128x32) zero_offsets]
  obtain ⟨-, -, -, -, -, -, -, -, -, -, e0, e1⟩ := index_maps t
  refine Cert.Lib.Entries.ext_ix2 _ _ fun p g => ?_
  rw [View.read_apply]
  show k0_pay1 (F := Ideal) (iblk0 V c 0 t) (iblk0 V c 1 t) (iblk0 V c 2 t) (iblk0 V c 3 t) (iblk0 V c 4 t) (ix2 p g)
    = whole (V c main_arg0) (V c main_arg2) (V c main_v0) (V c main_arg4) (V c main_v1)
        (((cfg0.win 5).blk t).view.emb (ix2 p g))
  have hemb : ((cfg0.win 5).blk t).view.emb (ix2 p g) = ix2 p g :=
    funext fun a => Fin.ext (by
      match a with
      | ⟨0, _⟩ => show win0_5.index t (0 : Fin 2) * 10000 + 1 * p.val = p.val; rw [e0]; omega
      | ⟨1, _⟩ => show win0_5.index t (1 : Fin 2) * 32 + 1 * g.val = g.val; rw [e1]; omega)
  rw [hemb, features_block V c t, weights0_block V c t, bias0_block V c t, weights1_block V c t, bias1_block V c t]
  exact Cert.KernelIdeal.PerceptronBlock.stored_entry (V c main_arg0) (V c main_arg2) (V c main_v0) (V c main_arg4)
    (V c main_v1) p g

/-- An index of the result array lies in the one block iff each coordinate is within the block's extent. -/
theorem mem_block (t : Fin cfg0.N) (i : S10000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v2).slice (win0_5.rect t)).set ↔ _
  rw [View.set_slice_whole, Rect.mem_set_unit]
  exact Iff.rfl

/-- The one block covers the whole result. -/
theorem covered (i : S10000x32.Idx) :
    ∃ t : Fin cfg0.N, (cfg0.win 5).flush t = true ∧ i ∈ ((cfg0.win 5).blk t).view.set := by
  have hi0 : (i 0).val < 10000 := (i 0).isLt
  have hi1 : (i 1).val < 32 := (i 1).isLt
  obtain ⟨-, -, -, -, -, -, -, -, -, -, e0, e1⟩ := index_maps t0_0
  refine ⟨t0_0, flush0_5 t0_0, ?_⟩
  rw [mem_block]
  intro a
  match a with
  | ⟨0, _⟩ =>
    show win0_5.index t0_0 (0 : Fin 2) * 10000 ≤ (i 0).val ∧ (i 0).val < win0_5.index t0_0 (0 : Fin 2) * 10000 + 10000
    rw [e0]; omega
  | ⟨1, _⟩ =>
    show win0_5.index t0_0 (1 : Fin 2) * 32 ≤ (i 1).val ∧ (i 1).val < win0_5.index t0_0 (1 : Fin 2) * 32 + 32
    rw [e1]; omega

/-- The result array after the region: the perceptron's scores of the arrays the region found. -/
theorem final (c : Dev nD) :
    (dat0 V c).arrAt 5 cfg0.N = whole (V c main_arg0) (V c main_arg2) (V c main_v0) (V c main_arg4) (V c main_v1) :=
  (dat0 V c).arrAt_eq_of_cover 5 _ (fun t _ => flushed_eq V c t) covered

end Cert.KernelIdeal.PerceptronRegion

end
-- ==== Proof.StepBlock.lean ====
/-
  One block of a propagation step, entry by entry.

  A grid point of the propagation kernels holds 400 rows of the adjacency matrix (all 10000 columns), all of the
  scores being propagated, and the same 400 rows of the perceptron scores. Over the extended reals the change of
  number format before the product is the identity and the matrix unit's product into a zero accumulator is the plain
  sum over the 10000 neighbours, so entry (r, g) of what the point stores is
      c₉ · (∑ k < 10000, a r k · src k g) + c₁ · h r g :
  a propagation step read on the block's own rows.
-/
import proofs.«110238_g16638703304886_cont_week2b_768_2_alg».proof.Proof.Gen.KernelIdeal.Skeleton
import proofs.«110238_g16638703304886_cont_week2b_768_2_alg».proof.Proof.LibPlainDot
import Idealize.ShloMosaic.Lib.ValueIdx
import Idealize.ShloMosaic.Lib.Pipeline.Value

noncomputable section

namespace Cert.KernelIdeal.StepBlock

open Idealize.ShloMosaic Idealize.ShloMosaic.ValueIdx Cert.KernelIdeal Cert.KernelIdeal.Gen

/-- The mixed scores of one block of 400 rows at row `r` and class `g`: what a propagation step's formula gives
    from the block's rows of the adjacency matrix `a`, all of the propagated scores `src` and the block's rows of
    the perceptron scores `h`. -/
def mixed (a : Vec Ideal S400x10000 .f32) (src : Vec Ideal S10000x32 .bf16) (h : Vec Ideal S400x32 .f32)
    (r : Fin 400) (g : Fin 32) : EReal :=
  Ideal.ofBits .f32 0x3F666666#32 * (∑ k : Fin 10000, a (ix2 r k) * src (ix2 k g))
    + Ideal.ofBits .f32 0x3DCCCCCD#32 * h (ix2 r g)

/-- The first propagation kernel's stored value at an entry is the step's formula on the block. -/
theorem stored_entry (a : Vec Ideal S400x10000 .f32) (src : Vec Ideal S10000x32 .bf16) (h : Vec Ideal S400x32 .f32)
    (r : Fin 400) (g : Fin 32) : k1_pay1 (F := Ideal) a src h (ix2 r g) = mixed a src h r g := by
  unfold k1_pay1 mixed
  rw [addf_apply, mulf_apply, mulf_apply, broadcast_apply, broadcast_apply, shapeCast_self, shapeCast_self,
    Cert.PlainDot.matmul_zero_apply dot_S400x10000_S10000x32_S400x32_1_0_0_1_n_n rfl]
  rfl

end Cert.KernelIdeal.StepBlock

end
-- ==== Proof.StepRegion.lean ====
/-
  The first propagation region, from blocks to the array.

  The region visits 25 grid points. Point t holds rows 400 t … 400 t + 399 of the adjacency matrix and of the
  perceptron scores, and all of the scores being propagated; it writes back the same rows of the result. A row of the
  product of the adjacency matrix with the scores depends only on that row of the adjacency matrix, so what point t
  writes is the propagation step of the WHOLE arrays read on the block's rows; and since 25 · 400 = 10000 the blocks
  tile the result, row i lying in the block of point i / 400. So the result array after the region is the
  propagation step of the arrays the region found.
-/
import proofs.«110238_g16638703304886_cont_week2b_768_2_alg».proof.Proof.Gen.KernelIdeal.Frame
import proofs.«110238_g16638703304886_cont_week2b_768_2_alg».proof.Proof.Layers
import proofs.«110238_g16638703304886_cont_week2b_768_2_alg».proof.Proof.LibEntries
import proofs.«110238_g16638703304886_cont_week2b_768_2_alg».proof.Proof.StepBlock
import Idealize.ShloMosaic.Lib.Pipeline.Value
import Idealize.ShloMosaic.Lib.ValueIdx

noncomputable section

namespace Cert.KernelIdeal.StepRegion

open Idealize.ShloMosaic Idealize.ShloMosaic.TcCoe Idealize.ShloMosaic.ValueIdx Idealize.SL.Sem
open Idealize.ShloMosaic.Pipeline (Dat)
open Cert.KernelIdeal Cert.KernelIdeal.Gen

-- the buffers' contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The region's index maps over its 25 grid points: the adjacency rows, the perceptron rows and the output rows
    move with the point; the propagated scores stay whole. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 25 := by
  have h := t.isLt
  have hN : cfg1.N = 25 := N_1
  omega

/-- Row `r` of the block of point `t`, as a row of the whole array: row 400 t + r. -/
def row (t : Fin cfg1.N) (r : Fin 400) : Fin 10000 :=
  ⟨t.val * 400 + r.val, by have := point_lt t; have := r.isLt; omega⟩

/-- The adjacency window's block at point `t`: rows 400 t … 400 t + 399 of the adjacency matrix, all columns. -/
theorem adjacency_block (c : Dev nD) (t : Fin cfg1.N) (r : Fin 400) (k : Fin 10000) :
    (iblk1 V c 0 t : Vec Ideal S400x10000 .f32) (ix2 r k)
      = (V c main_arg1 : S10000x10000.Idx → EReal) (ix2 (row t r) k) := by
  obtain ⟨e0, e1, -⟩ := index_maps t
  unfold iblk1
  rw [View.read_apply]
  show (V c main_arg1 : S10000x10000.Idx → EReal) _ = _
  refine congrArg (V c main_arg1 : S10000x10000.Idx → EReal) (funext fun a => Fin.ext ?_)
  match a with
  | ⟨0, _⟩ => show win1_0.index t (0 : Fin 2) * 400 + 1 * r.val = t.val * 400 + r.val; rw [e0]; omega
  | ⟨1, _⟩ => show win1_0.index t (1 : Fin 2) * 10000 + 1 * k.val = k.val; rw [e1]; omega

/-- The propagated scores' window is the whole array at every point. -/
theorem source_block (c : Dev nD) (t : Fin cfg1.N) (k : Fin 10000) (g : Fin 32) :
    (iblk1 V c 1 t : Vec Ideal S10000x32 .bf16) (ix2 k g) = (V c main_v3 : S10000x32.Idx → EReal) (ix2 k g) := by
  obtain ⟨-, -, e2, e3, -⟩ := index_maps t
  unfold iblk1
  rw [View.read_apply]
  show (V c main_v3 : S10000x32.Idx → EReal) _ = _
  refine congrArg (V c main_v3 : S10000x32.Idx → EReal) (funext fun a => Fin.ext ?_)
  match a with
  | ⟨0, _⟩ => show win1_1.index t (0 : Fin 2) * 10000 + 1 * k.val = k.val; rw [e2]; omega
  | ⟨1, _⟩ => show win1_1.index t (1 : Fin 2) * 32 + 1 * g.val = g.val; rw [e3]; omega

/-- The perceptron scores' window at point `t`: the same 400 rows of the perceptron scores. -/
theorem own_block (c : Dev nD) (t : Fin cfg1.N) (r : Fin 400) (g : Fin 32) :
    (iblk1 V c 2 t : Vec Ideal S400x32 .f32) (ix2 r g) = (V c main_v2 : S10000x32.Idx → EReal) (ix2 (row t r) g) := by
  obtain ⟨-, -, -, -, e4, e5, -⟩ := index_maps t
  unfold iblk1
  rw [View.read_apply]
  show (V c main_v2 : S10000x32.Idx → EReal) _ = _
  refine congrArg (V c main_v2 : S10000x32.Idx → EReal) (funext fun a => Fin.ext ?_)
  match a with
  | ⟨0, _⟩ => show win1_2.index t (0 : Fin 2) * 400 + 1 * r.val = t.val * 400 + r.val; rw [e4]; omega
  | ⟨1, _⟩ => show win1_2.index t (1 : Fin 2) * 32 + 1 * g.val = g.val; rw [e5]; omega

/-- The first propagation region's result as one function of whole arrays: a propagation step. -/
def whole (adj : Cert.Layers.Mat 10000 10000) (src h : Cert.Layers.Mat 10000 32) : Cert.Layers.Mat 10000 32 :=
  Cert.Layers.stepArr adj src h

/-- The mixed block of point `t` is the propagation step of the whole arrays, read on the block's rows. -/
theorem mixed_rows (c : Dev nD) (t : Fin cfg1.N) (r : Fin 400) (g : Fin 32) :
    Cert.KernelIdeal.StepBlock.mixed (iblk1 V c 0 t) (iblk1 V c 1 t) (iblk1 V c 2 t) r g
      = Cert.Layers.step (V c main_arg1) (V c main_v3) (V c main_v2) (row t r) g := by
  unfold Cert.KernelIdeal.StepBlock.mixed Cert.Layers.step
  rw [own_block V c t r g]
  refine congrArg (fun s => Ideal.ofBits .f32 0x3F666666#32 * s + _) (Finset.sum_congr rfl fun k _ => ?_)
  rw [adjacency_block V c t r k, source_block V c t k g]

/-- What point `t` writes back is block `t` of the whole-array function of the arrays as the region finds them. -/
theorem flushed_eq (c : Dev nD) (t : Fin cfg1.N) :
    (dat1 V c).flushed 3 t = ((cfg1.win 3).blk t).view.read (Elt Ideal)
      (whole (V c main_arg1) (V c main_v3) (V c main_v2)) := by
  show (cfg1.win 3).cut (grid1.coords t) ((dat1 V c).after 3 t) = _
  rw [after1_3]
  unfold out1_3
  rw [View.canon_unit_zero zero_offsets]
  simp only [View.ld_unit_zero (S := S400x10000) zero_offsets, View.ld_unit_zero (S := S10000x32) zero_offsets,
    View.ld_unit_zero (S := S400x32) zero_offsets]
  obtain ⟨-, -, -, -, -, -, e6, e7⟩ := index_maps t
  refine Cert.Lib.Entries.ext_ix2 _ _ fun r g => ?_
  rw [View.read_apply]
  show k1_pay1 (F := Ideal) (iblk1 V c 0 t) (iblk1 V c 1 t) (iblk1 V c 2 t) (ix2 r g)
    = whole (V c main_arg1) (V c main_v3) (V c main_v2) (((cfg1.win 3).blk t).view.emb (ix2 r g))
  have hemb : ((cfg1.win 3).blk t).view.emb (ix2 r g) = ix2 (row t r) g :=
    funext fun a => Fin.ext (by
      match a with
      | ⟨0, _⟩ => show win1_3.index t (0 : Fin 2) * 400 + 1 * r.val = t.val * 400 + r.val; rw [e6]; omega
      | ⟨1, _⟩ => show win1_3.index t (1 : Fin 2) * 32 + 1 * g.val = g.val; rw [e7]; omega)
  rw [hemb]
  exact (Cert.KernelIdeal.StepBlock.stored_entry (iblk1 V c 0 t) (iblk1 V c 1 t) (iblk1 V c 2 t) r g).trans
    (mixed_rows V c t r g)

/-- An index of the result array lies in point `t`'s block iff its row is among the block's 400 rows. -/
theorem mem_block (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v4).slice (win1_3.rect t)).set ↔ _
  rw [View.set_slice_whole, Rect.mem_set_unit]
  exact Iff.rfl

/-- Every row of the result lies in the block of the point 400 rows wide that holds it: the 25 blocks tile the array. -/
theorem covered (i : S10000x32.Idx) :
    ∃ t : Fin cfg1.N, (cfg1.win 3).flush t = true ∧ i ∈ ((cfg1.win 3).blk t).view.set := by
  have hi0 : (i 0).val < 10000 := (i 0).isLt
  have hi1 : (i 1).val < 32 := (i 1).isLt
  let t : Fin cfg1.N := ⟨(i 0).val / 400, by rw [show cfg1.N = 25 from N_1]; omega⟩
  obtain ⟨-, -, -, -, -, -, e6, e7⟩ := index_maps t
  refine ⟨t, flush1_3 t, ?_⟩
  rw [mem_block]
  intro a
  match a with
  | ⟨0, _⟩ =>
    show win1_3.index t (0 : Fin 2) * 400 ≤ (i 0).val ∧ (i 0).val < win1_3.index t (0 : Fin 2) * 400 + 400
    rw [e6]; show (i 0).val / 400 * 400 ≤ (i 0).val ∧ (i 0).val < (i 0).val / 400 * 400 + 400; omega
  | ⟨1, _⟩ =>
    show win1_3.index t (1 : Fin 2) * 32 ≤ (i 1).val ∧ (i 1).val < win1_3.index t (1 : Fin 2) * 32 + 32
    rw [e7]; omega

/-- The result array after the region: the whole-array function of the arrays the region found. -/
theorem final (c : Dev nD) :
    (dat1 V c).arrAt 3 cfg1.N = whole (V c main_arg1) (V c main_v3) (V c main_v2) :=
  (dat1 V c).arrAt_eq_of_cover 3 _ (fun t _ => flushed_eq V c t) covered

end Cert.KernelIdeal.StepRegion

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.SoftmaxBlock.lean ====
/-
  The final kernel's stored value, entry by entry.

  The last propagation kernel forms the same mixed block as the first and then normalises each of its 400 rows: the
  row's largest entry M (a lane maximum from −∞, set as a column and spread back along the row) is subtracted, the
  exponentials of the shifted row are summed (a lane sum from zero), and the logarithm of that sum is subtracted
  again. None of this mixes rows, so entry (r, g) of the stored block is the log-softmax of row r of the mixed block
  at class g.
-/
import proofs.«110238_g16638703304886_cont_week2b_768_2_alg».proof.Proof.Gen.KernelIdeal.Skeleton
import proofs.«110238_g16638703304886_cont_week2b_768_2_alg».proof.Proof.StepBlock
import proofs.«110238_g16638703304886_cont_week2b_768_2_alg».proof.Proof.Layers
import proofs.«110238_g16638703304886_cont_week2b_768_2_alg».proof.Proof.LibRowMax
import proofs.«110238_g16638703304886_cont_week2b_768_2_alg».proof.Proof.LibKeepdims
import Idealize.ShloMosaic.Lib.ValueIdx
import Idealize.ShloMosaic.Lib.Pipeline.Value

noncomputable section

namespace Cert.KernelIdeal.SoftmaxBlock

open Idealize.ShloMosaic Idealize.ShloMosaic.ValueIdx Cert.KernelIdeal Cert.KernelIdeal.Gen

/-- The exponential of an array of extended reals, at an entry. -/
theorem exp_apply {s : Shape} {φ : FTy} (a : FVec Ideal s φ) (i : s.Idx) : exp a i = Ideal.exp (a i) := rfl
/-- The logarithm of an array of extended reals, at an entry. -/
theorem log_apply {s : Shape} {φ : FTy} (a : FVec Ideal s φ) (i : s.Idx) : log a i = Ideal.log (a i) := rfl

/-- A block of 400 rows with each row's largest entry subtracted from the row. -/
def shifted (z : FVec Ideal S400x32 .f32) : FVec Ideal S400x32 .f32 :=
  subf z (broadcastTo S400x32
    (shapeCast S400x1 (multiReduction .maximumf [1] S400 z 0xFF800000#32 reduces_S400x32_S400 (.inl rfl) rfl) shapeCasts_S400_S400x1)
    broadcasts_S400x1_S400x32)

/-- The row normalisation the kernel applies to a block: shift by the row maximum, then subtract the logarithm of the
    row's sum of exponentials. -/
def normalised (z : FVec Ideal S400x32 .f32) : FVec Ideal S400x32 .f32 :=
  subf (shifted z) (broadcastTo S400x32
    (log (shapeCast S400x1 (multiReduction .add [1] S400 (exp (shifted z)) 0x00000000#32 reduces_S400x32_S400 (.inl rfl) rfl)
      shapeCasts_S400_S400x1))
    broadcasts_S400x1_S400x32)

/-- The final kernel stores the normalisation of the block the first propagation kernel stores. -/
theorem stored_eq (a : Vec Ideal S400x10000 .f32) (src : Vec Ideal S10000x32 .bf16) (h : Vec Ideal S400x32 .f32) :
    k2_pay1 (F := Ideal) a src h = normalised (k1_pay1 (F := Ideal) a src h) := rfl

/-- A shifted block at an entry: the entry less its row's maximum. -/
theorem shifted_entry (z : FVec Ideal S400x32 .f32) (r : Fin 400) (g : Fin 32) :
    shifted z (ix2 r g) = z (ix2 r g) - Cert.Layers.rowMax fun q => z (ix2 r q) := by
  unfold shifted Cert.Layers.rowMax
  rw [subf_apply, Cert.Lib.Keepdims.broadcastTo_a1_ab_apply, Cert.Lib.Keepdims.shapeCast_a_a1_apply]
  exact congrArg (z (ix2 r g) - ·)
    (Cert.Lib.RowMax.laneMax_apply z 0xFF800000#32 reduces_S400x32_S400 (.inl rfl) rfl r)

/-- The normalised block at an entry: the log-softmax of the entry's row. -/
theorem normalised_entry (z : FVec Ideal S400x32 .f32) (r : Fin 400) (g : Fin 32) :
    normalised z (ix2 r g) = Cert.Layers.logSoftmax (fun q => z (ix2 r q)) g := by
  unfold normalised Cert.Layers.logSoftmax
  rw [subf_apply, Cert.Lib.Keepdims.broadcastTo_a1_ab_apply, log_apply, Cert.Lib.Keepdims.shapeCast_a_a1_apply]
  refine congrArg₂ (· - ·) (shifted_entry z r g) (congrArg Ideal.log ?_)
  refine (Cert.Lib.Keepdims.laneSum_apply (exp (shifted z)) 0x00000000#32 reduces_S400x32_S400 (.inl rfl) rfl r).trans ?_
  exact Finset.sum_congr rfl fun q _ => by rw [exp_apply, shifted_entry]

/-- The final kernel's stored value at an entry is the log-softmax of the mixed block's row. -/
theorem stored_entry (a : Vec Ideal S400x10000 .f32) (src : Vec Ideal S10000x32 .bf16) (h : Vec Ideal S400x32 .f32)
    (r : Fin 400) (g : Fin 32) :
    k2_pay1 (F := Ideal) a src h (ix2 r g) = Cert.Layers.logSoftmax (fun q => Cert.KernelIdeal.StepBlock.mixed a src h r q) g := by
  rw [stored_eq, normalised_entry]
  simp only [Cert.KernelIdeal.StepBlock.stored_entry]

end Cert.KernelIdeal.SoftmaxBlock

end
-- ==== Proof.FinalRegion.lean ====
/-
  The final region, from blocks to the array.

  The last region visits the same 25 grid points with the same windows as the first propagation region, now
  propagating the first step's result, and normalises each row of the block it has mixed before writing it back. Both
  the mixing and the normalisation of a row use only that row of the adjacency matrix and of the perceptron scores, so
  what point t writes is, on the block's rows, the log-softmax of the rows of the propagation step of the WHOLE arrays;
  the 25 blocks tile the result (row i lies in the block of point i / 400). So the program's result array is the
  row-wise log-softmax of a propagation step of the arrays the region found.
-/
import proofs.«110238_g16638703304886_cont_week2b_768_2_alg».proof.Proof.Gen.KernelIdeal.Frame
import proofs.«110238_g16638703304886_cont_week2b_768_2_alg».proof.Proof.Layers
import proofs.«110238_g16638703304886_cont_week2b_768_2_alg».proof.Proof.LibEntries
import proofs.«110238_g16638703304886_cont_week2b_768_2_alg».proof.Proof.StepBlock
import proofs.«110238_g16638703304886_cont_week2b_768_2_alg».proof.Proof.SoftmaxBlock
import Idealize.ShloMosaic.Lib.Pipeline.Value
import Idealize.ShloMosaic.Lib.ValueIdx

noncomputable section

namespace Cert.KernelIdeal.FinalRegion

open Idealize.ShloMosaic Idealize.ShloMosaic.TcCoe Idealize.ShloMosaic.ValueIdx Idealize.SL.Sem
open Idealize.ShloMosaic.Pipeline (Dat)
open Cert.KernelIdeal Cert.KernelIdeal.Gen

-- the buffers' contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The region's index maps over its 25 grid points: the adjacency rows, the perceptron rows and the output rows
    move with the point; the propagated scores stay whole. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 25 := by
  have h := t.isLt
  have hN : cfg2.N = 25 := N_2
  omega

/-- Row `r` of the block of point `t`, as a row of the whole array: row 400 t + r. -/
def row (t : Fin cfg2.N) (r : Fin 400) : Fin 10000 :=
  ⟨t.val * 400 + r.val, by have := point_lt t; have := r.isLt; omega⟩

/-- The adjacency window's block at point `t`: rows 400 t … 400 t + 399 of the adjacency matrix, all columns. -/
theorem adjacency_block (c : Dev nD) (t : Fin cfg2.N) (r : Fin 400) (k : Fin 10000) :
    (iblk2 V c 0 t : Vec Ideal S400x10000 .f32) (ix2 r k)
      = (V c main_arg1 : S10000x10000.Idx → EReal) (ix2 (row t r) k) := by
  obtain ⟨e0, e1, -⟩ := index_maps t
  unfold iblk2
  rw [View.read_apply]
  show (V c main_arg1 : S10000x10000.Idx → EReal) _ = _
  refine congrArg (V c main_arg1 : S10000x10000.Idx → EReal) (funext fun a => Fin.ext ?_)
  match a with
  | ⟨0, _⟩ => show win2_0.index t (0 : Fin 2) * 400 + 1 * r.val = t.val * 400 + r.val; rw [e0]; omega
  | ⟨1, _⟩ => show win2_0.index t (1 : Fin 2) * 10000 + 1 * k.val = k.val; rw [e1]; omega

/-- The propagated scores' window is the whole array at every point. -/
theorem source_block (c : Dev nD) (t : Fin cfg2.N) (k : Fin 10000) (g : Fin 32) :
    (iblk2 V c 1 t : Vec Ideal S10000x32 .bf16) (ix2 k g) = (V c main_v5 : S10000x32.Idx → EReal) (ix2 k g) := by
  obtain ⟨-, -, e2, e3, -⟩ := index_maps t
  unfold iblk2
  rw [View.read_apply]
  show (V c main_v5 : S10000x32.Idx → EReal) _ = _
  refine congrArg (V c main_v5 : S10000x32.Idx → EReal) (funext fun a => Fin.ext ?_)
  match a with
  | ⟨0, _⟩ => show win2_1.index t (0 : Fin 2) * 10000 + 1 * k.val = k.val; rw [e2]; omega
  | ⟨1, _⟩ => show win2_1.index t (1 : Fin 2) * 32 + 1 * g.val = g.val; rw [e3]; omega

/-- The perceptron scores' window at point `t`: the same 400 rows of the perceptron scores. -/
theorem own_block (c : Dev nD) (t : Fin cfg2.N) (r : Fin 400) (g : Fin 32) :
    (iblk2 V c 2 t : Vec Ideal S400x32 .f32) (ix2 r g) = (V c main_v2 : S10000x32.Idx → EReal) (ix2 (row t r) g) := by
  obtain ⟨-, -, -, -, e4, e5, -⟩ := index_maps t
  unfold iblk2
  rw [View.read_apply]
  show (V c main_v2 : S10000x32.Idx → EReal) _ = _
  refine congrArg (V c main_v2 : S10000x32.Idx → EReal) (funext fun a => Fin.ext ?_)
  match a with
  | ⟨0, _⟩ => show win2_2.index t (0 : Fin 2) * 400 + 1 * r.val = t.val * 400 + r.val; rw [e4]; omega
  | ⟨1, _⟩ => show win2_2.index t (1 : Fin 2) * 32 + 1 * g.val = g.val; rw [e5]; omega

/-- The final region's result as one function of whole arrays: each row of a propagation step, normalised. -/
def whole (adj : Cert.Layers.Mat 10000 10000) (src h : Cert.Layers.Mat 10000 32) : Cert.Layers.Mat 10000 32 :=
  fun j => Cert.Layers.logSoftmax (fun q => Cert.Layers.step adj src h (j 0) q) (j 1)

/-- The mixed block of point `t` is the propagation step of the whole arrays, read on the block's rows. -/
theorem mixed_rows (c : Dev nD) (t : Fin cfg2.N) (r : Fin 400) (g : Fin 32) :
    Cert.KernelIdeal.StepBlock.mixed (iblk2 V c 0 t) (iblk2 V c 1 t) (iblk2 V c 2 t) r g
      = Cert.Layers.step (V c main_arg1) (V c main_v5) (V c main_v2) (row t r) g := by
  unfold Cert.KernelIdeal.StepBlock.mixed Cert.Layers.step
  rw [own_block V c t r g]
  refine congrArg (fun s => Ideal.ofBits .f32 0x3F666666#32 * s + _) (Finset.sum_congr rfl fun k _ => ?_)
  rw [adjacency_block V c t r k, source_block V c t k g]

/-- What point `t` writes back is block `t` of the whole-array function of the arrays as the region finds them. -/
theorem flushed_eq (c : Dev nD) (t : Fin cfg2.N) :
    (dat2 V c).flushed 3 t = ((cfg2.win 3).blk t).view.read (Elt Ideal)
      (whole (V c main_arg1) (V c main_v5) (V c main_v2)) := by
  show (cfg2.win 3).cut (grid2.coords t) ((dat2 V c).after 3 t) = _
  rw [after2_3]
  unfold out2_3
  rw [View.canon_unit_zero zero_offsets]
  simp only [View.ld_unit_zero (S := S400x10000) zero_offsets, View.ld_unit_zero (S := S10000x32) zero_offsets,
    View.ld_unit_zero (S := S400x32) zero_offsets]
  obtain ⟨-, -, -, -, -, -, e6, e7⟩ := index_maps t
  refine Cert.Lib.Entries.ext_ix2 _ _ fun r g => ?_
  rw [View.read_apply]
  show k2_pay1 (F := Ideal) (iblk2 V c 0 t) (iblk2 V c 1 t) (iblk2 V c 2 t) (ix2 r g)
    = whole (V c main_arg1) (V c main_v5) (V c main_v2) (((cfg2.win 3).blk t).view.emb (ix2 r g))
  have hemb : ((cfg2.win 3).blk t).view.emb (ix2 r g) = ix2 (row t r) g :=
    funext fun a => Fin.ext (by
      match a with
      | ⟨0, _⟩ => show win2_3.index t (0 : Fin 2) * 400 + 1 * r.val = t.val * 400 + r.val; rw [e6]; omega
      | ⟨1, _⟩ => show win2_3.index t (1 : Fin 2) * 32 + 1 * g.val = g.val; rw [e7]; omega)
  rw [hemb]
  exact (Cert.KernelIdeal.SoftmaxBlock.stored_entry (iblk2 V c 0 t) (iblk2 V c 1 t) (iblk2 V c 2 t) r g).trans
    (congrArg (fun z => Cert.Layers.logSoftmax z g) (funext fun q => mixed_rows V c t r q))

/-- An index of the result array lies in point `t`'s block iff its row is among the block's 400 rows. -/
theorem mem_block (t : Fin cfg2.N) (i : S10000x32.Idx) :
    i ∈ ((cfg2.win 3).blk t).view.set ↔ ∀ a : Fin 2, win2_3.index t a * S400x32.size a ≤ (i a).val ∧ (i a).val < win2_3.index t a * S400x32.size a + S400x32.size a := by
  show i ∈ ((View.whole main_v6).slice (win2_3.rect t)).set ↔ _
  rw [View.set_slice_whole, Rect.mem_set_unit]
  exact Iff.rfl

/-- Every row of the result lies in the block of the point 400 rows wide that holds it: the 25 blocks tile the array. -/
theorem covered (i : S10000x32.Idx) :
    ∃ t : Fin cfg2.N, (cfg2.win 3).flush t = true ∧ i ∈ ((cfg2.win 3).blk t).view.set := by
  have hi0 : (i 0).val < 10000 := (i 0).isLt
  have hi1 : (i 1).val < 32 := (i 1).isLt
  let t : Fin cfg2.N := ⟨(i 0).val / 400, by rw [show cfg2.N = 25 from N_2]; omega⟩
  obtain ⟨-, -, -, -, -, -, e6, e7⟩ := index_maps t
  refine ⟨t, flush2_3 t, ?_⟩
  rw [mem_block]
  intro a
  match a with
  | ⟨0, _⟩ =>
    show win2_3.index t (0 : Fin 2) * 400 ≤ (i 0).val ∧ (i 0).val < win2_3.index t (0 : Fin 2) * 400 + 400
    rw [e6]; show (i 0).val / 400 * 400 ≤ (i 0).val ∧ (i 0).val < (i 0).val / 400 * 400 + 400; omega
  | ⟨1, _⟩ =>
    show win2_3.index t (1 : Fin 2) * 32 ≤ (i 1).val ∧ (i 1).val < win2_3.index t (1 : Fin 2) * 32 + 32
    rw [e7]; omega

/-- The result array after the region: the whole-array function of the arrays the region found. -/
theorem final (c : Dev nD) :
    (dat2 V c).arrAt 3 cfg2.N = whole (V c main_arg1) (V c main_v5) (V c main_v2) :=
  (dat2 V c).arrAt_eq_of_cover 3 _ (fun t _ => flushed_eq V c t) covered

end Cert.KernelIdeal.FinalRegion

end
-- ==== Proof.KernelValue.lean ====
/-
  The idealized kernel's result is the specification.

  The program's buffers are followed through its six segments. The host stretch before the first region sets each
  scalar bias as a [1, 1] block and touches nothing else, so the perceptron region finds the argument arrays as launched
  and leaves the perceptron's scores H in its result array. The stretch before each propagation region only changes the
  number format of the scores about to be propagated — the identity over the extended reals — so the first propagation
  region finds the adjacency matrix as launched, H to propagate and H to mix in, and leaves the step from H; the final
  region finds the adjacency matrix, that step's result to propagate and H again, and leaves the row-wise log-softmax of
  the second step. A region changes no array but its own result, and a host stretch none but the one it writes.
-/
import proofs.«110238_g16638703304886_cont_week2b_768_2_alg».proof.Proof.Gen.KernelIdeal.Frame
import proofs.«110238_g16638703304886_cont_week2b_768_2_alg».proof.Proof.Layers
import proofs.«110238_g16638703304886_cont_week2b_768_2_alg».proof.Proof.PerceptronRegion
import proofs.«110238_g16638703304886_cont_week2b_768_2_alg».proof.Proof.StepRegion
import proofs.«110238_g16638703304886_cont_week2b_768_2_alg».proof.Proof.FinalRegion
import Idealize.ShloMosaic.Lib.StableHlo.Run
import Idealize.ShloMosaic.Lib.ValueLayout
import Idealize.ShloMosaic.Lib.ValueIdx
import Idealize.ShloMosaic.PureOps.Ideal

noncomputable section

namespace Cert.KernelIdeal.Composed

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- The perceptron's scores of the launched arrays. -/
abbrev H : Cert.Layers.Mat 10000 32 :=
  Cert.Layers.hiddenArr (m ((c : Thread nD τ).loc main_arg0)) (m ((c : Thread nD τ).loc main_arg2)) (m ((c : Thread nD τ).loc main_arg3)) (m ((c : Thread nD τ).loc main_arg4)) (m ((c : Thread nD τ).loc main_arg5))

/-! ## Before the perceptron region -/

theorem entry0_features : V1 m ρ c main_arg0 = m ((c : Thread nD τ).loc main_arg0) := by
  show StableHlo.after hostOps0 (W0 m ρ c) (Proc.devRef .tc main_arg0) = _
  after_results <;> rfl
theorem entry0_weights0 : V1 m ρ c main_arg2 = m ((c : Thread nD τ).loc main_arg2) := by
  show StableHlo.after hostOps0 (W0 m ρ c) (Proc.devRef .tc main_arg2) = _
  after_results <;> rfl
theorem entry0_weights1 : V1 m ρ c main_arg4 = m ((c : Thread nD τ).loc main_arg4) := by
  show StableHlo.after hostOps0 (W0 m ρ c) (Proc.devRef .tc main_arg4) = _
  after_results <;> rfl
theorem entry0_adjacency : W1 m ρ c (Proc.devRef .tc main_arg1) = m ((c : Thread nD τ).loc main_arg1) := by
  show StableHlo.after hostOps0 (W0 m ρ c) (Proc.devRef .tc main_arg1) = _
  after_results <;> rfl
/-- The first layer's bias set as a [1, 1] block. -/
theorem entry0_bias0 : V1 m ρ c main_v0 = shapeCast S1x1 (m ((c : Thread nD τ).loc main_arg3)) shapeCasts_S1_S1x1 := by
  show StableHlo.after hostOps0 (W0 m ρ c) (Proc.devRef .tc main_v0) = _
  after_results <;> rfl
/-- The second layer's bias set as a [1, 1] block. -/
theorem entry0_bias1 : V1 m ρ c main_v1 = shapeCast S1x1 (m ((c : Thread nD τ).loc main_arg5)) shapeCasts_S1_S1x1 := by
  show StableHlo.after hostOps0 (W0 m ρ c) (Proc.devRef .tc main_v1) = _
  after_results <;> rfl

/-! ## After the perceptron region -/

/-- The perceptron region leaves the perceptron's scores of the launched arrays. -/
theorem scores : W2 m ρ c (Proc.devRef .tc main_v2) = H m c := by
  refine (W2_arr m ρ c 5).trans ((Cert.KernelIdeal.PerceptronRegion.final (V1 m ρ) c).trans ?_)
  rw [entry0_features, entry0_weights0, entry0_weights1, entry0_bias0, entry0_bias1]
  funext j
  unfold Cert.KernelIdeal.PerceptronRegion.whole Cert.KernelIdeal.PerceptronBlock.score H Cert.Layers.hiddenArr
    Cert.Layers.hidden Cert.Layers.rectified
  rw [shapeCast_a_1a_apply, shapeCast_a_1a_apply]

/-- The adjacency matrix after the perceptron region is as launched: the region reads none of it. -/
theorem adjacency2 : W2 m ρ c (Proc.devRef .tc main_arg1) = m ((c : Thread nD τ).loc main_arg1) :=
  (W2_of_ne m ρ c main_arg1 (by decide)).trans (entry0_adjacency m ρ c)

/-! ## Before and after the first propagation region -/

theorem entry1_adjacency : V3 m ρ c main_arg1 = m ((c : Thread nD τ).loc main_arg1) := by
  refine Eq.trans ?_ (adjacency2 m ρ c)
  show StableHlo.after hostOps1 (W2 m ρ c) (Proc.devRef .tc main_arg1) = _
  after_results <;> rfl
theorem entry1_scores : V3 m ρ c main_v2 = H m c := by
  refine Eq.trans ?_ (scores m ρ c)
  show StableHlo.after hostOps1 (W2 m ρ c) (Proc.devRef .tc main_v2) = _
  after_results <;> rfl
/-- The scores to propagate, after the change of format: over the extended reals, the scores themselves. -/
theorem entry1_source : (V3 m ρ c main_v3 : S10000x32.Idx → EReal) = H m c := by
  refine Eq.trans ?_ (scores m ρ c)
  show StableHlo.after hostOps1 (W2 m ρ c) (Proc.devRef .tc main_v3) = _
  after_results <;> rfl

/-- The first propagation region leaves the step from the perceptron's scores. -/
theorem first_step : W4 m ρ c (Proc.devRef .tc main_v4)
    = Cert.Layers.stepArr (m ((c : Thread nD τ).loc main_arg1)) (H m c) (H m c) := by
  refine (W4_arr m ρ c 3).trans ((Cert.KernelIdeal.StepRegion.final (V3 m ρ) c).trans ?_)
  rw [entry1_adjacency, entry1_scores, entry1_source]
  rfl

/-- The region's input arrays are as it found them. -/
theorem adjacency4 : W4 m ρ c (Proc.devRef .tc main_arg1) = m ((c : Thread nD τ).loc main_arg1) :=
  (W4_arr m ρ c 0).trans ((((dat1 (V3 m ρ) c).arrAt_in 0 rfl _).trans (A_eq1 (V3 m ρ) c 0)).trans (entry1_adjacency m ρ c))
theorem scores4 : W4 m ρ c (Proc.devRef .tc main_v2) = H m c :=
  (W4_arr m ρ c 2).trans ((((dat1 (V3 m ρ) c).arrAt_in 2 rfl _).trans (A_eq1 (V3 m ρ) c 2)).trans (entry1_scores m ρ c))

/-! ## Before and after the final region -/

theorem entry2_adjacency : V5 m ρ c main_arg1 = m ((c : Thread nD τ).loc main_arg1) := by
  refine Eq.trans ?_ (adjacency4 m ρ c)
  show StableHlo.after hostOps2 (W4 m ρ c) (Proc.devRef .tc main_arg1) = _
  after_results <;> rfl
theorem entry2_scores : V5 m ρ c main_v2 = H m c := by
  refine Eq.trans ?_ (scores4 m ρ c)
  show StableHlo.after hostOps2 (W4 m ρ c) (Proc.devRef .tc main_v2) = _
  after_results <;> rfl
theorem entry2_source : (V5 m ρ c main_v5 : S10000x32.Idx → EReal)
    = Cert.Layers.stepArr (m ((c : Thread nD τ).loc main_arg1)) (H m c) (H m c) := by
  refine Eq.trans ?_ (first_step m ρ c)
  show StableHlo.after hostOps2 (W4 m ρ c) (Proc.devRef .tc main_v5) = _
  after_results <;> rfl

/-- The program's result array, at the last segment boundary, is the specification's function of the launched arrays. -/
theorem result_eq : W6 m ρ c (Proc.devRef .tc main_v6)
    = Cert.Layers.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Cert.KernelIdeal.FinalRegion.final (V5 m ρ) c).trans ?_)
  rw [entry2_adjacency, entry2_scores, entry2_source]
  rfl

end Cert.KernelIdeal.Composed

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibHostSpread.lean ====
/-
  One number spread over an array by the host's broadcast_in_dim.

  Two forms. A scalar (the rank-0 shape, no axes to place) broadcast to any shape puts the scalar at every index. A
  [1, 1] array broadcast to [a, b] along both axes puts its one entry at every index: both source axes have extent
  one, so each is read at coordinate 0 whatever the target's coordinate. General in the target's shape / extents and in
  the element type; these are how a literal constant and a scalar bias reach every entry of a layer on the host.
-/
import Idealize.ShloMosaic.Lib.Pipeline.Value
import Idealize.ShloMosaic.Lib.ValueIdx

noncomputable section

namespace Cert.Lib.HostSpread

open Idealize.ShloMosaic Idealize.ShloMosaic.ValueIdx

variable {α : Type}

/-- A scalar broadcast to any shape: every entry is the scalar. -/
theorem scalar_spread {s : Shape} (dims : Fin (⟨0, ![]⟩ : Shape).rank → Fin s.rank)
    (h : (⟨0, ![]⟩ : Shape).BroadcastsInDim s dims) (v : (⟨0, ![]⟩ : Shape).Idx → α) (j : s.Idx) :
    broadcastInDim s dims h v j = v ix0 :=
  broadcastInDim_apply dims h v j ix0 fun a => a.elim0

/-- A [1, 1] array broadcast to [a, b] along both axes: every entry is the array's one entry. -/
theorem cell_spread {a b : ℕ} (v : (⟨2, ![1, 1]⟩ : Shape).Idx → α)
    (h : (⟨2, ![1, 1]⟩ : Shape).BroadcastsInDim ⟨2, ![a, b]⟩ ![0, 1]) (j : (⟨2, ![a, b]⟩ : Shape).Idx) :
    broadcastInDim ⟨2, ![a, b]⟩ ![0, 1] h v j = v (ix2 (0 : Fin 1) (0 : Fin 1)) := by
  refine broadcastInDim_apply _ h v j (ix2 (0 : Fin 1) (0 : Fin 1)) fun ax => ?_
  match ax with
  | ⟨0, _⟩ => rfl
  | ⟨1, _⟩ => rfl

end Cert.Lib.HostSpread

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.ReferenceStages.lean ====
/-
  The reference, stage by stage.

  The reference computes the same three things on the host, each on whole arrays: the perceptron (two matrix
  products, each followed by a scalar bias spread over the layer, with a rectifier between them), a propagation
  step (the adjacency matrix times the scores, scaled, plus the scaled perceptron scores) taken twice, and a row-wise
  log-softmax (a row maximum from −∞, compared once more against −∞, set as a column and spread back; the shifted row's
  exponentials summed from zero; the logarithm of the sum set as a column, spread back and subtracted). Each stage is
  stated here once as a function of generic arrays and read at an entry over the extended reals. The only steps that
  are not a direct reading are that the reference scales the product from the right where the specification scales
  it from the left (multiplication commutes), that a maximum against −∞ is the other argument, and that a sum started
  from the zero word starts from zero.
-/
import proofs.«110238_g16638703304886_cont_week2b_768_2_alg».proof.Proof.Gen.ReferenceIdeal
import proofs.«110238_g16638703304886_cont_week2b_768_2_alg».proof.Proof.Layers
import proofs.«110238_g16638703304886_cont_week2b_768_2_alg».proof.Proof.LibPlainDot
import proofs.«110238_g16638703304886_cont_week2b_768_2_alg».proof.Proof.LibBroadcastInDim
import proofs.«110238_g16638703304886_cont_week2b_768_2_alg».proof.Proof.LibHostSpread
import proofs.«110238_g16638703304886_cont_week2b_768_2_alg».proof.Proof.LibAxisFolds
import proofs.«110238_g16638703304886_cont_week2b_768_2_alg».proof.Proof.LibHostColumns
import proofs.«110238_g16638703304886_cont_week2b_768_2_alg».proof.Proof.LibHostCalls
import proofs.«110238_g16638703304886_cont_week2b_768_2_alg».proof.Proof.LibRowMax
import proofs.«110238_g16638703304886_cont_week2b_768_2_alg».proof.Proof.LibEntries
import Idealize.ShloMosaic.Lib.ValueIdx
import Idealize.ShloMosaic.Lib.Pipeline.Value

noncomputable section

namespace Cert.ReferenceIdeal.Stages

open Idealize.ShloMosaic Idealize.ShloMosaic.ValueIdx Cert.ReferenceIdeal Cert.ReferenceIdeal.Facts₀

/-- The perceptron as the reference's host operations. -/
def perceptron (x : FVec Ideal S10000x128 .f32) (W0 : FVec Ideal S128x128 .f32) (b0 : FVec Ideal S1 .f32)
    (W1 : FVec Ideal S128x32 .f32) (b1 : FVec Ideal S1 .f32) : FVec Ideal S10000x32 .f32 :=
  addf (Host.dotGeneral (F := Ideal) dot_S10000x128_S128x32_S10000x32_1_0_0_1_n_n none
      (maximumf (addf (Host.dotGeneral (F := Ideal) dot_S10000x128_S128x128_S10000x128_1_0_0_1_n_n none x W0)
          (broadcastInDim S10000x128 ![0, 1] bcast_S1x1_S10000x128_0_1 (broadcastInDim S1x1 ![1] bcast_S1_S1x1_1 b0)))
        (broadcastInDim S10000x128 ![] bcast_S_S10000x128 (constant (F := Ideal) S_ .f32 0x00000000#32))) W1)
    (broadcastInDim S10000x32 ![0, 1] bcast_S1x1_S10000x32_0_1 (broadcastInDim S1x1 ![1] bcast_S1_S1x1_1 b1))

/-- A propagation step as the reference's host operations. -/
def propagate (adj : FVec Ideal S10000x10000 .f32) (src h : FVec Ideal S10000x32 .f32) : FVec Ideal S10000x32 .f32 :=
  addf (mulf (Host.dotGeneral (F := Ideal) dot_S10000x10000_S10000x32_S10000x32_1_0_0_1_n_n none adj src)
      (broadcastInDim S10000x32 ![] bcast_S_S10000x32 (constant (F := Ideal) S_ .f32 0x3F666666#32)))
    (mulf (broadcastInDim S10000x32 ![] bcast_S_S10000x32 (constant (F := Ideal) S_ .f32 0x3DCCCCCD#32)) h)

/-- The scores with each row's maximum subtracted, as the reference's host operations. -/
def shifted (z : FVec Ideal S10000x32 .f32) : FVec Ideal S10000x32 .f32 :=
  subf z (broadcastInDim S10000x32 ![0, 1] bcast_S10000x1_S10000x32_0_1
    (broadcastInDim S10000x1 ![0] bcast_S10000_S10000x1_0
      (maximumf (broadcastInDim S10000 ![] bcast_S_S10000 (constant (F := Ideal) S_ .f32 0xFF800000#32))
        (Host.reduce (FloatOps.maximumf (F := Ideal) (φ := .f32)) z (constant (F := Ideal) S_ .f32 0xFF800000#32)
          reducesTo_S10000x32_S10000_d1 h_S_))))

/-- The row-wise log-softmax as the reference's host operations. -/
def normalise (z : FVec Ideal S10000x32 .f32) : FVec Ideal S10000x32 .f32 :=
  subf (shifted z) (broadcastInDim S10000x32 ![0, 1] bcast_S10000x1_S10000x32_0_1
    (Host.log (broadcastInDim S10000x1 ![0] bcast_S10000_S10000x1_0
      (Host.reduceAdd (Host.exp (shifted z)) (constant (F := Ideal) S_ .f32 0x00000000#32)
        reducesTo_S10000x32_S10000_d1 h_S_))))

/-- The reference's perceptron at an entry is the perceptron's score. -/
theorem perceptron_entry (x : FVec Ideal S10000x128 .f32) (W0 : FVec Ideal S128x128 .f32) (b0 : FVec Ideal S1 .f32)
    (W1 : FVec Ideal S128x32 .f32) (b1 : FVec Ideal S1 .f32) (p : Fin 10000) (g : Fin 32) :
    perceptron x W0 b0 W1 b1 (ix2 p g) = Cert.Layers.hidden x W0 b0 W1 b1 p g := by
  unfold perceptron Cert.Layers.hidden
  rw [addf_apply, Cert.PlainDot.hostDot_apply dot_S10000x128_S128x32_S10000x32_1_0_0_1_n_n rfl,
    Cert.Lib.HostSpread.cell_spread, Cert.Lib.InDim.vec_as_row]
  refine congrArg (· + b1 (ix1 (0 : Fin 1))) (Finset.sum_congr rfl fun k _ => ?_)
  unfold Cert.Layers.rectified
  rw [maximumf_apply, addf_apply, Cert.PlainDot.hostDot_apply dot_S10000x128_S128x128_S10000x128_1_0_0_1_n_n rfl,
    Cert.Lib.HostSpread.cell_spread,
    Cert.Lib.InDim.vec_as_row, Cert.Lib.HostSpread.scalar_spread, constant_apply]

/-- The reference's propagation step at an entry is the step's formula: scaling from the right is scaling from the
    left. -/
theorem propagate_entry (adj : FVec Ideal S10000x10000 .f32) (src h : FVec Ideal S10000x32 .f32)
    (p : Fin 10000) (g : Fin 32) :
    propagate adj src h (ix2 p g) = Cert.Layers.step adj src h p g := by
  unfold propagate Cert.Layers.step
  rw [addf_apply, mulf_apply, mulf_apply,
    Cert.PlainDot.hostDot_apply dot_S10000x10000_S10000x32_S10000x32_1_0_0_1_n_n rfl, Cert.Lib.HostSpread.scalar_spread,
    Cert.Lib.HostSpread.scalar_spread, constant_apply, constant_apply]
  exact congrArg (· + Ideal.ofBits .f32 0x3DCCCCCD#32 * h (ix2 p g)) (mul_comm _ _)

/-- The reference's shifted scores at an entry: the entry less its row's maximum (the second maximum, against −∞,
    changes nothing). -/
theorem shifted_entry (z : FVec Ideal S10000x32 .f32) (p : Fin 10000) (g : Fin 32) :
    shifted z (ix2 p g) = z (ix2 p g) - Cert.Layers.rowMax fun q => z (ix2 p q) := by
  unfold shifted Cert.Layers.rowMax
  rw [subf_apply, Cert.Lib.InDim.col_spread, Cert.Lib.InDim.vec_as_col, maximumf_apply,
    Cert.Lib.HostSpread.scalar_spread, constant_apply, Cert.Lib.RowMax.max_negInf_f32]
  refine congrArg (z (ix2 p g) - ·) ?_
  exact (Cert.Lib.AxisFolds.hostLastMax_apply z (constant (F := Ideal) S_ .f32 0xFF800000#32)
    reducesTo_S10000x32_S10000_d1 (by decide) h_S_ p)

/-- The reference's log-softmax at an entry is the log-softmax of the entry's row. -/
theorem normalise_entry (z : FVec Ideal S10000x32 .f32) (p : Fin 10000) (g : Fin 32) :
    normalise z (ix2 p g) = Cert.Layers.logSoftmax (fun q => z (ix2 p q)) g := by
  unfold normalise Cert.Layers.logSoftmax
  rw [subf_apply, Cert.Lib.InDim.col_spread, Cert.Lib.HostCalls.hostLog_apply, Cert.Lib.InDim.vec_as_col]
  refine congrArg₂ (· - ·) (shifted_entry z p g) (congrArg Ideal.log ?_)
  refine (Cert.Lib.HostColumns.hostRowSum_apply (Host.exp (shifted z)) (constant (F := Ideal) S_ .f32 0x00000000#32)
    reducesTo_S10000x32_S10000_d1 (by decide) h_S_ p).trans ?_
  rw [constant_apply, Ideal.ofBits_zero_f32, zero_add]
  exact Finset.sum_congr rfl fun q _ => by rw [Cert.Lib.HostCalls.hostExp_apply, shifted_entry]

/-- The three stages composed as the reference composes them, index by index, are the specification. -/
theorem composed (x : FVec Ideal S10000x128 .f32) (adj : FVec Ideal S10000x10000 .f32) (W0 : FVec Ideal S128x128 .f32)
    (b0 : FVec Ideal S1 .f32) (W1 : FVec Ideal S128x32 .f32) (b1 : FVec Ideal S1 .f32) :
    normalise (propagate adj (propagate adj (perceptron x W0 b0 W1 b1) (perceptron x W0 b0 W1 b1)) (perceptron x W0 b0 W1 b1))
      = Cert.Layers.result x adj W0 b0 W1 b1 := by
  have hp : perceptron x W0 b0 W1 b1 = Cert.Layers.hiddenArr x W0 b0 W1 b1 :=
    Cert.Lib.Entries.ext_ix2 _ _ fun p g => perceptron_entry x W0 b0 W1 b1 p g
  have hs : ∀ src h : FVec Ideal S10000x32 .f32, propagate adj src h = Cert.Layers.stepArr adj src h :=
    fun src h => Cert.Lib.Entries.ext_ix2 _ _ fun p g => propagate_entry adj src h p g
  rw [hp, hs (Cert.Layers.hiddenArr x W0 b0 W1 b1) (Cert.Layers.hiddenArr x W0 b0 W1 b1)]
  refine Cert.Lib.Entries.ext_ix2 _ _ fun p g => ?_
  rw [normalise_entry]
  exact congrArg (fun z => Cert.Layers.logSoftmax z g) (funext fun q => propagate_entry adj _ _ p q)

end Cert.ReferenceIdeal.Stages

end
-- ==== Proof.ReferenceValue.lean ====
/-
  The reference's result is the specification.

  The reference's run ends with its result array at one composed term of the argument arrays. That term is the three
  stages — the perceptron, a propagation step taken twice, the row-wise log-softmax — composed in the order the
  program applies them, with every repeated subterm written out in full; read through the stages it is the
  specification's function of the six argument arrays.
-/
import proofs.«110238_g16638703304886_cont_week2b_768_2_alg».proof.Proof.ReferenceRunPatched
import proofs.«110238_g16638703304886_cont_week2b_768_2_alg».proof.Proof.ReferenceStages

noncomputable section

namespace Cert.ReferenceIdeal.RefValue

open Idealize.ShloMosaic Idealize.ShloMosaic.TcCoe Idealize.SL.Sem Cert.ReferenceIdeal Cert.ReferenceIdeal.Gen

variable (m : (ℓ : Loc nD τ sig) → Buf (Elt Ideal) ℓ) (c : Dev nD)

set_option maxRecDepth 16384 in
/-- The run's result term is the stages composed. -/
theorem result_composed :
    Cert.ReferenceIdeal.ValueP.res_main_v21 m c
      = Cert.ReferenceIdeal.Stages.normalise
          (Cert.ReferenceIdeal.Stages.propagate (m ((c.tc : Thread nD τ).loc main_arg1))
            (Cert.ReferenceIdeal.Stages.propagate (m ((c.tc : Thread nD τ).loc main_arg1))
              (Cert.ReferenceIdeal.Stages.perceptron (m ((c.tc : Thread nD τ).loc main_arg0)) (m ((c.tc : Thread nD τ).loc main_arg2))
                (m ((c.tc : Thread nD τ).loc main_arg3)) (m ((c.tc : Thread nD τ).loc main_arg4)) (m ((c.tc : Thread nD τ).loc main_arg5)))
              (Cert.ReferenceIdeal.Stages.perceptron (m ((c.tc : Thread nD τ).loc main_arg0)) (m ((c.tc : Thread nD τ).loc main_arg2))
                (m ((c.tc : Thread nD τ).loc main_arg3)) (m ((c.tc : Thread nD τ).loc main_arg4)) (m ((c.tc : Thread nD τ).loc main_arg5))))
            (Cert.ReferenceIdeal.Stages.perceptron (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5)))) :=
  rfl

/-- The reference's result array is the specification's function of the argument arrays. -/
theorem result_eq :
    Cert.ReferenceIdeal.ValueP.res_main_v21 m c
      = Cert.Layers.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (result_composed m c).trans (Cert.ReferenceIdeal.Stages.composed _ _ _ _ _ _)

end Cert.ReferenceIdeal.RefValue

end
-- ==== Proof.lean ====
/-
  A graph propagation network's forward pass on 10000 nodes: a kernel program against its plain reference.

  Both programs take node features x [10000, 128], a dense adjacency matrix adj [10000, 10000], two weight matrices and
  two scalar biases, and return 32 class scores per node. A two-layer perceptron scores every node,
      H p g = (∑ k < 128, max ((∑ i < 128, x p i · W0 i k) + b0) 0 · W1 k g) + b1;
  two propagation steps mix the neighbours' scores with the node's own perceptron scores,
      Y₁ = c₉ · (adj · H) + c₁ · H,   Y₂ = c₉ · (adj · Y₁) + c₁ · H,
  with c₉ and c₁ the single-precision words nearest 0.9 and 0.1; and each row of Y₂ is normalised by log-softmax.

  The kernel program does this in three regions — the perceptron at one grid point on whole arrays; each
  propagation step over 25 blocks of 400 rows of the adjacency matrix, the second fusing the normalisation of its
  rows — with the scores narrowed to a shorter number format before each product. The reference does it with whole
  host operations. Over the extended reals the two compute ONE function of the six arrays: a change of number format
  is the identity; a matrix unit's product into a zero accumulator and the host's contraction are the same sum over
  the contracted axis (each contraction here is taken whole, never split across blocks); a row of adj · Y depends only
  on that row of adj, so the blocks of a step are the rows of the whole step, and the 25 blocks tile the 10000 rows;
  log-softmax acts on one row at a time. What remains between the two texts is that the reference scales the
  product from the right (multiplication commutes) and compares the row maximum once more against −∞ (no change).
  No step uses that the inputs are finite.

  The kernel's idealization rewrote no operation, so it is the kernel's own text read over the extended reals.
-/
import proofs.«110238_g16638703304886_cont_week2b_768_2_alg».proof.Defs
import proofs.«110238_g16638703304886_cont_week2b_768_2_alg».proof.Proof.Gen.Kernel
import proofs.«110238_g16638703304886_cont_week2b_768_2_alg».proof.Proof.Gen.Kernel.Skeleton
import proofs.«110238_g16638703304886_cont_week2b_768_2_alg».proof.Proof.Gen.Kernel.Launch
import proofs.«110238_g16638703304886_cont_week2b_768_2_alg».proof.Proof.Gen.Kernel.Points
import proofs.«110238_g16638703304886_cont_week2b_768_2_alg».proof.Proof.Gen.Kernel.Frame
import proofs.«110238_g16638703304886_cont_week2b_768_2_alg».proof.Proof.Gen.KernelIdeal
import proofs.«110238_g16638703304886_cont_week2b_768_2_alg».proof.Proof.Gen.KernelIdeal.Skeleton
import proofs.«110238_g16638703304886_cont_week2b_768_2_alg».proof.Proof.Gen.KernelIdeal.Launch
import proofs.«110238_g16638703304886_cont_week2b_768_2_alg».proof.Proof.Gen.KernelIdeal.Points
import proofs.«110238_g16638703304886_cont_week2b_768_2_alg».proof.Proof.Gen.KernelIdeal.Frame
import proofs.«110238_g16638703304886_cont_week2b_768_2_alg».proof.Proof.Gen.ReferenceIdeal
import proofs.«110238_g16638703304886_cont_week2b_768_2_alg».proof.Proof.Gen.Pre_finite_inputs
import proofs.«110238_g16638703304886_cont_week2b_768_2_alg».proof.Proof.Layers
import proofs.«110238_g16638703304886_cont_week2b_768_2_alg».proof.Proof.KernelRun
import proofs.«110238_g16638703304886_cont_week2b_768_2_alg».proof.Proof.KernelValue
import proofs.«110238_g16638703304886_cont_week2b_768_2_alg».proof.Proof.ReferenceRunPatched
import proofs.«110238_g16638703304886_cont_week2b_768_2_alg».proof.Proof.ReferenceValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing: there is no conjunct to state. -/
theorem preserves : Cert.preserves_Kernel_KernelIdeal := trivial

/-- From memories agreeing on the six arguments, both idealized programs end with their result arrays at the
    specification's function of those arguments. -/
theorem algebraic : Cert.algebraic_KernelIdeal_ReferenceIdeal := by
  intro m ρ m' ρ' _ hagree
  refine ⟨fun c => Cert.Layers.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Composed.result_eq m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
